-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x128 : Shape := ⟨2, ![128, 128]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x512 .f32) (main_arg1 : IVec S2x1600000 32) (main_arg2 : FVec F S512x128 .f32) (main_arg3 : FVec F S128 .f32) (main_arg4 : FVec F S128x128 .f32) (main_arg5 : FVec F S128 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x128 : Shape := ⟨2, ![128, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x512 : Shape := ⟨2, ![5000, 512]⟩
abbrev S5000x128 : Shape := ⟨2, ![5000, 128]⟩
abbrev S1700000x128 : Shape := ⟨2, ![1700000, 128]⟩
abbrev S1x128 : Shape := ⟨2, ![1, 128]⟩

abbrev nBuf : Space → Nat
  | .hbm => 86
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S100000x512, .bf16⟩
  | .hbm, ⟨40, _⟩ => ⟨S512x128, .bf16⟩
  | .hbm, ⟨41, _⟩ => ⟨S100000x128, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x128, .f32⟩
  | .hbm, ⟨51, _⟩ => ⟨S1700000x1, .f32⟩
  | .hbm, ⟨52, _⟩ => ⟨S1700000x128, .f32⟩
  | .hbm, ⟨53, _⟩ => ⟨S1700000x128, .f32⟩
  | .hbm, ⟨54, _⟩ => ⟨S_, .f32⟩
  | .hbm, ⟨55, _⟩ => ⟨S100000x128, .f32⟩
  | .hbm, ⟨56, _⟩ => ⟨S1700000x1, .i32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S100000x128, .f32⟩
  | .hbm, ⟨63, _⟩ => ⟨S100000x128, .f32⟩
  | .hbm, ⟨64, _⟩ => ⟨S100000x128, .bf16⟩
  | .hbm, ⟨65, _⟩ => ⟨S128x128, .bf16⟩
  | .hbm, ⟨66, _⟩ => ⟨S100000x128, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x128, .f32⟩
  | .hbm, ⟨76, _⟩ => ⟨S1700000x1, .f32⟩
  | .hbm, ⟨77, _⟩ => ⟨S1700000x128, .f32⟩
  | .hbm, ⟨78, _⟩ => ⟨S1700000x128, .f32⟩
  | .hbm, ⟨79, _⟩ => ⟨S_, .f32⟩
  | .hbm, ⟨80, _⟩ => ⟨S100000x128, .f32⟩
  | .hbm, ⟨81, _⟩ => ⟨S1700000x1, .i32⟩
  | .hbm, ⟨82, _⟩ => ⟨S100000x128, .f32⟩
  | .hbm, ⟨83, _⟩ => ⟨S1x128, .f32⟩
  | .hbm, ⟨84, _⟩ => ⟨S100000x128, .f32⟩
  | .hbm, ⟨85, _⟩ => ⟨S100000x128, .f32⟩
  | .local _ .vmem, ⟨0, _⟩ => ⟨S5000x512, .bf16⟩
  | .local _ .vmem, ⟨1, _⟩ => ⟨S5000x512, .bf16⟩
  | .local _ .vmem, ⟨2, _⟩ => ⟨S512x128, .bf16⟩
  | .local _ .vmem, ⟨3, _⟩ => ⟨S5000x128, .f32⟩
  | .local _ .vmem, ⟨4, _⟩ => ⟨S5000x128, .f32⟩
  | .local _ .vmem, ⟨5, _⟩ => ⟨S5000x128, .bf16⟩
  | .local _ .vmem, ⟨6, _⟩ => ⟨S5000x128, .bf16⟩
  | .local _ .vmem, ⟨7, _⟩ => ⟨S128x128, .bf16⟩
  | .local _ .vmem, ⟨8, _⟩ => ⟨S5000x128, .f32⟩
  | .local _ .vmem, ⟨9, _⟩ => ⟨S5000x128, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_v0 : Ref sig .tc := ⟨.hbm, 39, rfl⟩
abbrev main_call0_v1 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call1_cst : Ref sig .tc := ⟨.hbm, 61, rfl⟩
abbrev main_call1_v0 : Ref sig .tc := ⟨.hbm, 62, rfl⟩
abbrev main_v44 : Ref sig .tc := ⟨.hbm, 63, rfl⟩
abbrev main_call2_v0 : Ref sig .tc := ⟨.hbm, 64, rfl⟩
abbrev main_call2_v1 : Ref sig .tc := ⟨.hbm, 65, rfl⟩
abbrev main_v45 : Ref sig .tc := ⟨.hbm, 66, rfl⟩
abbrev main_c_7 : Ref sig .tc := ⟨.hbm, 67, rfl⟩
abbrev main_v46 : Ref sig .tc := ⟨.hbm, 68, rfl⟩
abbrev main_v47 : Ref sig .tc := ⟨.hbm, 69, rfl⟩
abbrev main_c_8 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bitsLt_bf16_f32 : FTy.bits .bf16 < FTy.bits .f32
  inb_S5000x512_S5000x512_0_0 : ∀ a, (![0, 0] : Fin 2 → Nat) a + S5000x512.size a ≤ S5000x512.size a
  h_S5000x512 : 0 < S5000x512.numel
  shapeCasts_S5000x512_S5000x512 : S5000x512.ShapeCasts S5000x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x512_S512x128_S5000x128_1_0_0_1_n_n_wf : DotDims.WF S5000x512 S512x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .bf16 = 32 ∨ (Rect.block (s := S100000x512) S5000x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .bf16 = 32 ∨ (Rect.block (s := S512x128) S512x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .bf16 = 32 ∨ (Rect.block (s := S100000x128) S5000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_call0_v0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call2_v0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call2_v1) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x128 : Shape := ⟨2, ![128, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩

abbrev nBuf : Space → Nat
  | .hbm => 101
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S100000x128, .f32⟩
  | .hbm, ⟨21, _⟩ => ⟨S_, .i32⟩
  | .hbm, ⟨22, _⟩ => ⟨S1700000, .i32⟩
  | .hbm, ⟨23, _⟩ => ⟨S1700000, .i1⟩
  | .hbm, ⟨24, _⟩ => ⟨S_, .i32⟩
  | .hbm, ⟨25, _⟩ => ⟨S1700000, .i32⟩
  | .hbm, ⟨26, _⟩ => ⟨S1700000, .i32⟩
  | .hbm, ⟨27, _⟩ => ⟨S1700000, .i32⟩
  | .hbm, ⟨28, _⟩ => ⟨S1700000x1, .i32⟩
  | .hbm, ⟨29, _⟩ => ⟨S1700000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x128, .f32⟩
  | .hbm, ⟨49, _⟩ => ⟨S1700000x1, .f32⟩
  | .hbm, ⟨50, _⟩ => ⟨S1700000x128, .f32⟩
  | .hbm, ⟨51, _⟩ => ⟨S1700000x128, .f32⟩
  | .hbm, ⟨52, _⟩ => ⟨S_, .f32⟩
  | .hbm, ⟨53, _⟩ => ⟨S100000x128, .f32⟩
  | .hbm, ⟨54, _⟩ => ⟨S1700000x1, .i32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S_, .i32⟩
  | .hbm, ⟨64, _⟩ => ⟨S1700000, .i32⟩
  | .hbm, ⟨65, _⟩ => ⟨S1700000, .i1⟩
  | .hbm, ⟨66, _⟩ => ⟨S_, .i32⟩
  | .hbm, ⟨67, _⟩ => ⟨S1700000, .i32⟩
  | .hbm, ⟨68, _⟩ => ⟨S1700000, .i32⟩
  | .hbm, ⟨69, _⟩ => ⟨S1700000, .i32⟩
  | .hbm, ⟨70, _⟩ => ⟨S1700000x1, .i32⟩
  | .hbm, ⟨71, _⟩ => ⟨S1700000, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000, .f32⟩
  | .hbm, ⟨81, _⟩ => ⟨S1700000, .f32⟩
  | .hbm, ⟨82, _⟩ => ⟨S_, .i32⟩
  | .hbm, ⟨83, _⟩ => ⟨S1700000, .i32⟩
  | .hbm, ⟨84, _⟩ => ⟨S1700000, .i1⟩
  | .hbm, ⟨85, _⟩ => ⟨S_, .i32⟩
  | .hbm, ⟨86, _⟩ => ⟨S1700000, .i32⟩
  | .hbm, ⟨87, _⟩ => ⟨S1700000, .i32⟩
  | .hbm, ⟨88, _⟩ => ⟨S1700000, .i32⟩
  | .hbm, ⟨89, _⟩ => ⟨S1700000x1, .i32⟩
  | .hbm, ⟨90, _⟩ => ⟨S1700000x128, .f32⟩
  | .hbm, ⟨91, _⟩ => ⟨S1700000x1, .f32⟩
  | .hbm, ⟨92, _⟩ => ⟨S1700000x128, .f32⟩
  | .hbm, ⟨93, _⟩ => ⟨S1700000x128, .f32⟩
  | .hbm, ⟨94, _⟩ => ⟨S_, .f32⟩
  | .hbm, ⟨95, _⟩ => ⟨S100000x128, .f32⟩
  | .hbm, ⟨96, _⟩ => ⟨S1700000x1, .i32⟩
  | .hbm, ⟨97, _⟩ => ⟨S100000x128, .f32⟩
  | .hbm, ⟨98, _⟩ => ⟨S1x128, .f32⟩
  | .hbm, ⟨99, _⟩ => ⟨S100000x128, .f32⟩
  | .hbm, ⟨100, _⟩ => ⟨S100000x128, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_9 : Ref sig .tc := ⟨.hbm, 72, rfl⟩
abbrev main_v53 : Ref sig .tc := ⟨.hbm, 73, rfl⟩
abbrev main_v54 : Ref sig .tc := ⟨.hbm, 74, rfl⟩
abbrev main_c_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_13 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  dot_S100000x512_S512x128_S100000x128_1_0_0_1_n_n_wf : DotDims.WF S100000x512 S512x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run with every buffer named.

  The program is eight segments in a row: two stretches of host operations, the first product's grid of
  twenty row blocks, three more stretches, the second product's grid, a last stretch. The contents of the
  device's unscoped buffers at each boundary are a fold through these segments, from the launch memory to the
  last boundary's valuation. The frame reads only the six argument arrays out of that last valuation; here the
  same run is read at EVERY unscoped buffer, so that the result array, and through it the whole chain of
  intermediate arrays, can be computed from the fold.
-/
import proofs.«100466_j66211215835752_1_alg».proof.Proof.Gen.KernelIdeal.Frame

set_option maxRecDepth 16384

noncomputable section

namespace Cert.KernelIdeal.Held

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in its final state every unscoped
    buffer of every core holds what the fold through the eight segments leaves there. -/
theorem run_held : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The same, read at one unscoped buffer of the TensorCore. -/
theorem held_at {r : PUnit × MemSt nD τ sig (Elt F)}
    (h : ∀ c : Dev nD, ∀ b ∈ Pipeline.ucRefs τ sig, r.2.mem (((c : Thread nD τ)).1, b) = W8 m ρ c b)
    (c : Dev nD) (b : Ref sig .tc) (hb : ¬ (Proc.devRef .tc b : DevRef τ sig).isScoped) :
    r.2.mem ((c.tc : Thread nD τ).loc b) = W8 m ρ c (Proc.devRef .tc b) :=
  h c _ (mem_uc b hb)

end Cert.KernelIdeal.Held

end
-- ==== Proof.LibPlainDot.lean ====
/-
  A plain matrix product read at an index, at the ideal instance.

  For the dimension numbers "rows × contraction times contraction × columns" (`DotDims.plain M K N`) both the
  vector unit's matmul into a zero accumulator and the host's dot_general are, at output index (a, b), the sum over
  k of l (a, k) · r (k, b) on the extended reals. The sum over the one-axis contraction index is re-indexed by its
  one coordinate.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

theorem lhs0 (M K N : Nat) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl
theorem lhs1 (M K N : Nat) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q
theorem rhs0 (M K N : Nat) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q
theorem rhs1 (M K N : Nat) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction sum of a plain product at (a, b), over the coordinate `k : Fin K`. -/
theorem sum_plain (M K N : Nat) {φ₁ φ₂ : FTy} (l : FVec Ideal ⟨2, ![M, K]⟩ φ₁) (r : FVec Ideal ⟨2, ![K, N]⟩ φ₂)
    (a : Fin M) (b : Fin N) :
    ∑ k : (DotDims.plain M K N).contr.Idx, l ((DotDims.plain M K N).lhsIdx (ix2 a b) k) * r ((DotDims.plain M K N).rhsIdx (ix2 a b) k)
      = ∑ k : Fin K, l (ix2 a k) * r (ix2 k b) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 a b) ((contrEquiv1 (DotDims.plain M K N) K rfl rfl).symm k) = ix2 a k :=
    funext fun d => Fin.ext (by
      match d with
      | ⟨0, _⟩ => exact lhs0 M K N _ _
      | ⟨1, _⟩ => exact (lhs1 M K N _ _).trans hk)
  have er : (DotDims.plain M K N).rhsIdx (ix2 a b) ((contrEquiv1 (DotDims.plain M K N) K rfl rfl).symm k) = ix2 k b :=
    funext fun d => Fin.ext (by
      match d with
      | ⟨0, _⟩ => exact (rhs0 M K N _ _).trans hk
      | ⟨1, _⟩ => exact rhs1 M K N _ _)
  rw [el, er]

/-- The vector unit's matmul into the zero accumulator, at (a, b). -/
theorem matmul_plain {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (a : Fin M) (b : Fin N) :
    matmul D prec l r (constant ⟨2, ![M, N]⟩ .f32 0x00000000#32) (ix2 a b) = ∑ k : Fin K, l (ix2 a k) * r (ix2 k b) := by
  subst hD
  exact (Ideal.matmul_constant_zero_apply _ prec l r (ix2 a b)).trans (sum_plain M K N l r a b)

/-- The host's dot_general, at (a, b). -/
theorem dotGeneral_plain {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (a : Fin M) (b : Fin N) :
    Host.dotGeneral (F := Ideal) D prec l r (ix2 a b) = ∑ k : Fin K, l (ix2 a k) * r (ix2 k b) := by
  subst hD
  simp only [Host.dotGeneral]
  exact (Ideal.dotGeneral_apply _ prec _ l r (ix2 a b)).trans (sum_plain M K N l r a b)

end Idealize.ShloMosaic.PlainDot

end
-- ==== Proof.BlockProduct.lean ====
/-
  A block of rows of a matrix product is the rows of the whole product.

  Over the extended reals, let X be an [A, K] matrix and W a [K, N] matrix. If a [J, K] matrix xb holds, in its
  row p, row a of X, and wb holds W, then entry (p, q) of the product xb · wb accumulated from zero is entry (a, q)
  of the product X · W: both are the sum over k of X (a, k) · W (k, q), the same K terms in the same order, so no
  law of the extended reals beyond reading the two sums is used, and nothing has to be finite.
-/
import proofs.«100466_j66211215835752_1_alg».proof.Proof.LibPlainDot

noncomputable section

open scoped BigOperators

namespace Idealize.ShloMosaic.BlockProduct

open Idealize.ShloMosaic Idealize.ShloMosaic.ValueIdx Idealize.ShloMosaic.PlainDot

/-- Entry (p, q) of a block's product from the zero accumulator is entry (a, q) of the whole product, when the block's
    row p is the whole left operand's row a and the right operands agree on column q. -/
theorem matmul_rows {A J K N : ℕ} {φ₁ φ₂ ψ₁ ψ₂ : FTy}
    (Dk : DotDims ⟨2, ![J, K]⟩ ⟨2, ![K, N]⟩ ⟨2, ![J, N]⟩) (hDk : Dk = DotDims.plain J K N)
    (Dh : DotDims ⟨2, ![A, K]⟩ ⟨2, ![K, N]⟩ ⟨2, ![A, N]⟩) (hDh : Dh = DotDims.plain A K N)
    (prec prec' : Option ContractPrecision)
    (xb : FVec Ideal ⟨2, ![J, K]⟩ ψ₁) (wb : FVec Ideal ⟨2, ![K, N]⟩ ψ₂)
    (X : FVec Ideal ⟨2, ![A, K]⟩ φ₁) (W : FVec Ideal ⟨2, ![K, N]⟩ φ₂)
    (p : Fin J) (q : Fin N) (a : Fin A)
    (hx : ∀ k : Fin K, xb (ix2 p k) = X (ix2 a k)) (hw : ∀ k : Fin K, wb (ix2 k q) = W (ix2 k q)) :
    matmul Dk prec xb wb (constant ⟨2, ![J, N]⟩ .f32 0x00000000#32) (ix2 p q)
      = Host.dotGeneral (F := Ideal) Dh prec' X W (ix2 a q) := by
  rw [matmul_plain Dk hDk prec xb wb p q, dotGeneral_plain Dh hDh prec' X W a q]
  exact Finset.sum_congr rfl fun k _ => by rw [hx k, hw k]

end Idealize.ShloMosaic.BlockProduct

end
-- ==== Proof.Products.lean ====
/-
  Each grid of row blocks leaves the whole matrix product.

  A region of the program multiplies a [100000, K] array by a [K, 128] array in twenty steps: step t loads rows
  5000 t … 5000 t + 4999 of the left operand and the whole right operand, multiplies them into a zero accumulator,
  and writes the [5000, 128] result over the same rows of the output array. Entry (p, q) of the block written at step
  t is therefore entry (5000 t + p, q) of the whole product (a block of rows of a product is the rows of the
  product), the twenty blocks tile the output's rows, and so the output array ends holding the whole product of the
  two operand arrays as the region found them. This holds for any contents the region is entered with.
-/
import proofs.«100466_j66211215835752_1_alg».proof.Proof.Gen.KernelIdeal.Frame
import proofs.«100466_j66211215835752_1_alg».proof.Proof.BlockProduct
import Idealize.ShloMosaic.Lib.Pipeline.Value
import Idealize.ShloMosaic.Lib.ValueIdx

set_option maxRecDepth 16384

noncomputable section

namespace Cert.KernelIdeal.Products

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

theorem dims0 : (dot_S5000x512_S512x128_S5000x128_1_0_0_1_n_n : DotDims S5000x512 S512x128 S5000x128) = DotDims.plain 5000 512 128 := rfl
theorem dims1 : (dot_S5000x128_S128x128_S5000x128_1_0_0_1_n_n : DotDims S5000x128 S128x128 S5000x128) = DotDims.plain 5000 128 128 := rfl

/-! ## The first product: [100000, 512] by [512, 128] -/

/-- The whole product of the first region's two operand arrays, as the region finds them. -/
def whole0 (c : Dev nD) : S100000x128.Idx → Elt Ideal .f32 :=
  Host.dotGeneral (F := Ideal) (DotDims.plain 100000 512 128) none
    (φ₁ := .bf16) (φ₂ := .bf16) (V c main_call0_v0) (V c main_call0_v1)

/-- The printed index maps over the twenty points: the left operand's and the output's blocks move together down the
    rows, the right operand's block stays, and no block leaves the first column of blocks. -/
theorem index_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every block of rows is some point's. -/
theorem index_onto0 : ∀ q0 : Fin 20, ∃ t : Fin cfg0.N, win0_2.index t = ![q0.val, 0] :=
  (by decide +kernel : ∀ q0 : Fin 20, ∃ t : Fin grid0.N, win0_2.index t = ![q0.val, 0])

/-- What point t writes back is block t of the whole product. -/
theorem flushed0 (c : Dev nD) (t : Fin cfg0.N) :
    (dat0 V c).flushed 2 t = ((cfg0.win 2).blk t).view.read (Elt Ideal) (whole0 V c) := by
  show (cfg0.win 2).cut (grid0.coords t) ((dat0 V c).after 2 t) = _
  rw [after0_2]
  unfold out0_2
  rw [View.canon_unit_zero zero_offsets]
  simp only [View.ld_unit_zero (S := S5000x512) zero_offsets, View.ld_unit_zero (S := S512x128) zero_offsets]
  obtain ⟨e0, e1, e2, e3, e4, e5⟩ := index_facts0 t
  funext j
  obtain ⟨p, q, rfl⟩ : ∃ (p : Fin 5000) (q : Fin 128), j = ix2 p q := ⟨j 0, j 1, eq_ix2 j⟩
  have ha : win0_2.index t (0 : Fin 2) * 5000 + p.val < 100000 := by have := p.isLt; omega
  show k0_pay1 (iblk0 V c 0 t) (iblk0 V c 1 t) (ix2 p q) = whole0 V c (((cfg0.win 2).blk t).view.emb (ix2 p q))
  have hemb : ((cfg0.win 2).blk t).view.emb (ix2 p q) = ix2 (⟨win0_2.index t (0 : Fin 2) * 5000 + p.val, ha⟩ : Fin 100000) q := by
    funext d; apply Fin.ext
    match d with
    | ⟨0, _⟩ => show win0_2.index t (0 : Fin 2) * 5000 + 1 * p.val = win0_2.index t (0 : Fin 2) * 5000 + p.val; omega
    | ⟨1, _⟩ => show win0_2.index t (1 : Fin 2) * 128 + 1 * q.val = q.val; omega
  rw [hemb]
  unfold k0_pay1 whole0
  rw [shapeCast_self, shapeCast_self]
  refine BlockProduct.matmul_rows _ dims0 _ rfl none none _ _ _ _ p q _ (fun k => ?_) (fun k => ?_)
  · show V c main_call0_v0 (((cfg0.win 0).blk t).view.emb (ix2 p k)) = V c main_call0_v0 (ix2 _ k)
    refine congrArg _ (funext fun d => Fin.ext ?_)
    match d with
    | ⟨0, _⟩ => show win0_0.index t (0 : Fin 2) * 5000 + 1 * p.val = win0_2.index t (0 : Fin 2) * 5000 + p.val; omega
    | ⟨1, _⟩ => show win0_0.index t (1 : Fin 2) * 512 + 1 * k.val = k.val; omega
  · show V c main_call0_v1 (((cfg0.win 1).blk t).view.emb (ix2 k q)) = V c main_call0_v1 (ix2 k q)
    refine congrArg _ (funext fun d => Fin.ext ?_)
    match d with
    | ⟨0, _⟩ => show win0_1.index t (0 : Fin 2) * 512 + 1 * k.val = k.val; omega
    | ⟨1, _⟩ => show win0_1.index t (1 : Fin 2) * 128 + 1 * q.val = q.val; omega

/-- An index of the output array is in point t's block iff each coordinate is in the block's range on its axis. -/
theorem mem_block0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v27).slice (win0_2.rect t)).set ↔ _
  rw [View.set_slice_whole, Rect.mem_set_unit]
  exact Iff.rfl

/-- Row r lies in the block of point r / 5000: the blocks cover the output array. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := index_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The first region's output array after its twenty points: the whole product. -/
theorem final0 (c : Dev nD) : (dat0 V c).arrAt 2 cfg0.N = whole0 V c :=
  (dat0 V c).arrAt_eq_of_cover 2 (whole0 V c) (fun t _ => flushed0 V c t) (cover0)

/-! ## The second product: [100000, 128] by [128, 128] -/

/-- The whole product of the second region's two operand arrays, as the region finds them. -/
def whole1 (c : Dev nD) : S100000x128.Idx → Elt Ideal .f32 :=
  Host.dotGeneral (F := Ideal) (DotDims.plain 100000 128 128) none
    (φ₁ := .bf16) (φ₂ := .bf16) (V c main_call2_v0) (V c main_call2_v1)

/-- The printed index maps over the twenty points: the left operand's and the output's blocks move together down the
    rows, the right operand's block stays, and no block leaves the first column of blocks. -/
theorem index_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 19 :=
  (by decide +kernel : ∀ t : Fin grid1.N, _)

/-- Every block of rows is some point's. -/
theorem index_onto1 : ∀ q0 : Fin 20, ∃ t : Fin cfg1.N, win1_2.index t = ![q0.val, 0] :=
  (by decide +kernel : ∀ q0 : Fin 20, ∃ t : Fin grid1.N, win1_2.index t = ![q0.val, 0])

/-- What point t writes back is block t of the whole product. -/
theorem flushed1 (c : Dev nD) (t : Fin cfg1.N) :
    (dat1 V c).flushed 2 t = ((cfg1.win 2).blk t).view.read (Elt Ideal) (whole1 V c) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S128x128) zero_offsets]
  obtain ⟨e0, e1, e2, e3, e4, e5⟩ := index_facts1 t
  funext j
  obtain ⟨p, q, rfl⟩ : ∃ (p : Fin 5000) (q : Fin 128), j = ix2 p q := ⟨j 0, j 1, eq_ix2 j⟩
  have ha : win1_2.index t (0 : Fin 2) * 5000 + p.val < 100000 := by have := p.isLt; omega
  show k1_pay1 (iblk1 V c 0 t) (iblk1 V c 1 t) (ix2 p q) = whole1 V c (((cfg1.win 2).blk t).view.emb (ix2 p q))
  have hemb : ((cfg1.win 2).blk t).view.emb (ix2 p q) = ix2 (⟨win1_2.index t (0 : Fin 2) * 5000 + p.val, ha⟩ : Fin 100000) q := by
    funext d; apply Fin.ext
    match d with
    | ⟨0, _⟩ => show win1_2.index t (0 : Fin 2) * 5000 + 1 * p.val = win1_2.index t (0 : Fin 2) * 5000 + p.val; omega
    | ⟨1, _⟩ => show win1_2.index t (1 : Fin 2) * 128 + 1 * q.val = q.val; omega
  rw [hemb]
  unfold k1_pay1 whole1
  rw [shapeCast_self, shapeCast_self]
  refine BlockProduct.matmul_rows _ dims1 _ rfl none none _ _ _ _ p q _ (fun k => ?_) (fun k => ?_)
  · show V c main_call2_v0 (((cfg1.win 0).blk t).view.emb (ix2 p k)) = V c main_call2_v0 (ix2 _ k)
    refine congrArg _ (funext fun d => Fin.ext ?_)
    match d with
    | ⟨0, _⟩ => show win1_0.index t (0 : Fin 2) * 5000 + 1 * p.val = win1_2.index t (0 : Fin 2) * 5000 + p.val; omega
    | ⟨1, _⟩ => show win1_0.index t (1 : Fin 2) * 128 + 1 * k.val = k.val; omega
  · show V c main_call2_v1 (((cfg1.win 1).blk t).view.emb (ix2 k q)) = V c main_call2_v1 (ix2 k q)
    refine congrArg _ (funext fun d => Fin.ext ?_)
    match d with
    | ⟨0, _⟩ => show win1_1.index t (0 : Fin 2) * 128 + 1 * k.val = k.val; omega
    | ⟨1, _⟩ => show win1_1.index t (1 : Fin 2) * 128 + 1 * q.val = q.val; omega

/-- An index of the output array is in point t's block iff each coordinate is in the block's range on its axis. -/
theorem mem_block1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- Row r lies in the block of point r / 5000: the blocks cover the output array. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := index_onto1 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The second region's output array after its twenty points: the whole product. -/
theorem final1 (c : Dev nD) : (dat1 V c).arrAt 2 cfg1.N = whole1 V c :=
  (dat1 V c).arrAt_eq_of_cover 2 (whole1 V c) (fun t _ => flushed1 V c t) (cover1)

end Cert.KernelIdeal.Products

end
-- ==== Proof.Stages.lean ====
/-
  The idealized kernel's buffers, boundary by boundary, against the reference's stages.

  Both programs are the same graph convolution: the edge list with a self loop per node appended, the in-degree of
  every node by a segment sum of ones, the edge weights rsqrt(deg src) · rsqrt(deg dst), and then twice
  "multiply by a weight matrix, gather the rows at the edges' sources, scale by the edge weights, segment-sum into
  the edges' targets, add the bias", with max(·, 0) between the two layers. The kernel's program computes each of the
  two matrix products in a grid of row blocks and everything else with the reference's own host operations. So the
  contents of its buffers at the five boundaries of its run — before the first grid, after it, before the second grid,
  after it, at the return — are the reference's stages of the same names: the host stretches by reading the fold one
  operation at a time, the two grids by the theorem that a grid of row blocks leaves the whole product. On the
  extended reals a change of float format is the identity, which is all that separates the kernel's operand
  arrays from the reference's.
-/
import proofs.«100466_j66211215835752_1_alg».proof.Proof.Gen.KernelIdeal.Frame
import proofs.«100466_j66211215835752_1_alg».proof.Proof.Gen.ReferenceIdeal.Read
import proofs.«100466_j66211215835752_1_alg».proof.Proof.Products

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg) (c : Dev nD)

/-- On the extended reals a change of float format is the identity, on whole arrays. -/
theorem truncf_ideal {s : Shape} {φ ψ : FTy} (a : FVec Ideal s φ) (h : ψ.bits < φ.bits) :
    (truncf ψ a h : FVec Ideal s ψ) = a := rfl

/-! ## Before the first grid: the edge lists, the edge weights, the first product's operands -/

/-- The edges' sources with the self loops appended. -/
theorem entry_src : W2 m ρ c (Proc.devRef .tc main_v3) = val_main_v3 (F := Ideal) (m ((c.tc : Thread nD τ).loc main_arg1)) := by
  dsimp only [W2, W1, hostOps0_1, hostOps0]
  after_results
  simp only [val_main_v0, val_main_v1, val_main_v2, val_main_v3, val_main_v4, val_main_v5, val_main_v6]
  rfl

/-- The edges' targets with the self loops appended. -/
theorem entry_dst : W2 m ρ c (Proc.devRef .tc main_v6) = val_main_v6 (F := Ideal) (m ((c.tc : Thread nD τ).loc main_arg1)) := by
  dsimp only [W2, W1, hostOps0_1, hostOps0]
  after_results
  simp only [val_main_v0, val_main_v1, val_main_v2, val_main_v3, val_main_v4, val_main_v5, val_main_v6]
  rfl

/-- The edge weights rsqrt(deg src) · rsqrt(deg dst). -/
theorem entry_norm : W2 m ρ c (Proc.devRef .tc main_v26) = val_main_v27 (F := Ideal) (m ((c.tc : Thread nD τ).loc main_arg1)) := by
  dsimp only [W2, W1, hostOps0_1, hostOps0]
  after_results_simp
  simp only [val_main_v0, val_main_v1, val_main_v2, val_main_v3, val_main_v4, val_main_v5, val_main_v6, val_main_cst, val_main_v7, val_main_cst_0, val_main_v8, val_main_v9, val_main_v10, val_main_v11, val_main_c, val_main_v13, val_main_v14, val_main_c_1, val_main_v15, val_main_v16, val_main_v17, val_main_v18, val_main_v19, val_main_c_2, val_main_v20, val_main_v21, val_main_c_3, val_main_v22, val_main_v23, val_main_v24, val_main_v25, val_main_v26, val_main_v27]
  rfl

/-- The first product's left operand is the node features: the change of format is the identity. -/
theorem entry_x : W2 m ρ c (Proc.devRef .tc main_call0_v0) = (m ((c.tc : Thread nD τ).loc main_arg0)) := by
  dsimp only [W2, W1, hostOps0_1, hostOps0]
  after_results
  rfl

/-- The first product's right operand is the first weight matrix. -/
theorem entry_w : W2 m ρ c (Proc.devRef .tc main_call0_v1) = (m ((c.tc : Thread nD τ).loc main_arg2)) := by
  dsimp only [W2, W1, hostOps0_1, hostOps0]
  after_results
  rfl

theorem entry_b1 : W2 m ρ c (Proc.devRef .tc main_arg3) = (m ((c.tc : Thread nD τ).loc main_arg3)) := by
  dsimp only [W2, W1, hostOps0_1, hostOps0]
  after_results

theorem entry_w2 : W2 m ρ c (Proc.devRef .tc main_arg4) = (m ((c.tc : Thread nD τ).loc main_arg4)) := by
  dsimp only [W2, W1, hostOps0_1, hostOps0]
  after_results

theorem entry_b2 : W2 m ρ c (Proc.devRef .tc main_arg5) = (m ((c.tc : Thread nD τ).loc main_arg5)) := by
  dsimp only [W2, W1, hostOps0_1, hostOps0]
  after_results

/-! ## After the first grid: the first product; everything else as before -/

/-- The first grid's output is the reference's first product. -/
theorem mid_lin : W3 m ρ c (Proc.devRef .tc main_v27) = val_main_v12 (F := Ideal) (m ((c.tc : Thread nD τ).loc main_arg0)) (m ((c.tc : Thread nD τ).loc main_arg2)) := by
  refine (W3_arr m ρ c 2).trans ?_
  rw [Products.final0]
  unfold Products.whole0
  dsimp only [V2]
  rw [entry_x, entry_w]
  unfold val_main_v12
  simp only [Host.dotGeneral, Ideal.dotGeneral_def]
  rfl

theorem mid_src : W3 m ρ c (Proc.devRef .tc main_v3) = val_main_v3 (F := Ideal) (m ((c.tc : Thread nD τ).loc main_arg1)) :=
  (W3_of_ne m ρ c main_v3 (by decide)).trans (entry_src m ρ c)
theorem mid_dst : W3 m ρ c (Proc.devRef .tc main_v6) = val_main_v6 (F := Ideal) (m ((c.tc : Thread nD τ).loc main_arg1)) :=
  (W3_of_ne m ρ c main_v6 (by decide)).trans (entry_dst m ρ c)
theorem mid_norm : W3 m ρ c (Proc.devRef .tc main_v26) = val_main_v27 (F := Ideal) (m ((c.tc : Thread nD τ).loc main_arg1)) :=
  (W3_of_ne m ρ c main_v26 (by decide)).trans (entry_norm m ρ c)
theorem mid_b1 : W3 m ρ c (Proc.devRef .tc main_arg3) = (m ((c.tc : Thread nD τ).loc main_arg3)) :=
  (W3_of_ne m ρ c main_arg3 (by decide)).trans (entry_b1 m ρ c)
theorem mid_w2 : W3 m ρ c (Proc.devRef .tc main_arg4) = (m ((c.tc : Thread nD τ).loc main_arg4)) :=
  (W3_of_ne m ρ c main_arg4 (by decide)).trans (entry_w2 m ρ c)
theorem mid_b2 : W3 m ρ c (Proc.devRef .tc main_arg5) = (m ((c.tc : Thread nD τ).loc main_arg5)) :=
  (W3_of_ne m ρ c main_arg5 (by decide)).trans (entry_b2 m ρ c)

/-! ## Before the second grid: the first layer's output, the second product's operands -/

/-- The first layer before max(·, 0): gather, scale, segment-sum, bias, over the first product. -/
theorem first_sum : W4 m ρ c (Proc.devRef .tc main_v43)
    = val_main_v43 (F := Ideal) (m ((c.tc : Thread nD τ).loc main_arg0)) (m ((c.tc : Thread nD τ).loc main_arg1)) (m ((c.tc : Thread nD τ).loc main_arg2)) (m ((c.tc : Thread nD τ).loc main_arg3)) := by
  dsimp only [W4, hostOps1]
  after_results_simp
  rw [mid_lin, mid_src, mid_dst, mid_norm, mid_b1]
  simp only [val_main_c_4, val_main_v28, val_main_v29, val_main_c_5, val_main_v30, val_main_v31, val_main_v32, val_main_v33, val_main_v34, val_main_v35, val_main_v36, val_main_v37, val_main_cst_6, val_main_v38, val_main_v39, val_main_v40, val_main_v41, val_main_v42, val_main_v43]
  rfl

/-- The first layer's output: max(·, 0). -/
theorem first_out : W5 m ρ c (Proc.devRef .tc main_v44)
    = val_main_v44 (F := Ideal) (m ((c.tc : Thread nD τ).loc main_arg0)) (m ((c.tc : Thread nD τ).loc main_arg1)) (m ((c.tc : Thread nD τ).loc main_arg2)) (m ((c.tc : Thread nD τ).loc main_arg3)) := by
  have h := first_sum m ρ c
  show StableHlo.after hostOps1_1 (W4 m ρ c) (Proc.devRef .tc main_v44) = _
  generalize W4 m ρ c = Wv at h ⊢
  dsimp only [hostOps1_1]
  after_results
  simp only [val_main_v44, val_main_call0_v0, val_main_call0_cst]
  rw [← h]
  rfl

/-- The second product's left operand is the first layer's output: the change of format is the identity. -/
theorem second_x : W6 m ρ c (Proc.devRef .tc main_call2_v0)
    = val_main_v44 (F := Ideal) (m ((c.tc : Thread nD τ).loc main_arg0)) (m ((c.tc : Thread nD τ).loc main_arg1)) (m ((c.tc : Thread nD τ).loc main_arg2)) (m ((c.tc : Thread nD τ).loc main_arg3)) := by
  have h := first_out m ρ c
  show StableHlo.after hostOps1_2 (W5 m ρ c) (Proc.devRef .tc main_call2_v0) = _
  generalize W5 m ρ c = Wv at h ⊢
  dsimp only [hostOps1_2]
  after_results
  rw [← h]
  -- the two transports along the buffers' types and the change of format are each the identity
  refine eq_of_heq (HEq.trans (cast_heq _ _) ?_)
  refine HEq.trans (heq_of_eq (truncf_ideal _ _)) ?_
  exact cast_heq _ _

/-- The second product's right operand is the second weight matrix. -/
theorem second_w : W6 m ρ c (Proc.devRef .tc main_call2_v1) = (m ((c.tc : Thread nD τ).loc main_arg4)) := by
  dsimp only [W6, W5, W4, hostOps1_2, hostOps1_1, hostOps1]
  after_results
  rw [mid_w2]
  rfl

theorem second_src : W6 m ρ c (Proc.devRef .tc main_v3) = val_main_v3 (F := Ideal) (m ((c.tc : Thread nD τ).loc main_arg1)) := by
  dsimp only [W6, W5, W4, hostOps1_2, hostOps1_1, hostOps1]
  after_results
  exact mid_src m ρ c
theorem second_dst : W6 m ρ c (Proc.devRef .tc main_v6) = val_main_v6 (F := Ideal) (m ((c.tc : Thread nD τ).loc main_arg1)) := by
  dsimp only [W6, W5, W4, hostOps1_2, hostOps1_1, hostOps1]
  after_results
  exact mid_dst m ρ c
theorem second_norm : W6 m ρ c (Proc.devRef .tc main_v26) = val_main_v27 (F := Ideal) (m ((c.tc : Thread nD τ).loc main_arg1)) := by
  dsimp only [W6, W5, W4, hostOps1_2, hostOps1_1, hostOps1]
  after_results
  exact mid_norm m ρ c
theorem second_b2 : W6 m ρ c (Proc.devRef .tc main_arg5) = (m ((c.tc : Thread nD τ).loc main_arg5)) := by
  dsimp only [W6, W5, W4, hostOps1_2, hostOps1_1, hostOps1]
  after_results
  exact mid_b2 m ρ c

/-! ## After the second grid: the second product; everything else as before -/

/-- The second grid's output is the reference's second product. -/
theorem late_lin : W7 m ρ c (Proc.devRef .tc main_v45)
    = val_main_v45 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W7_arr m ρ c 2).trans ?_
  rw [Products.final1]
  unfold Products.whole1
  dsimp only [V6]
  rw [second_x, second_w]
  unfold val_main_v45
  simp only [Host.dotGeneral, Ideal.dotGeneral_def]
  rfl

theorem late_src : W7 m ρ c (Proc.devRef .tc main_v3) = val_main_v3 (F := Ideal) (m ((c.tc : Thread nD τ).loc main_arg1)) :=
  (W7_of_ne m ρ c main_v3 (by decide)).trans (second_src m ρ c)
theorem late_dst : W7 m ρ c (Proc.devRef .tc main_v6) = val_main_v6 (F := Ideal) (m ((c.tc : Thread nD τ).loc main_arg1)) :=
  (W7_of_ne m ρ c main_v6 (by decide)).trans (second_dst m ρ c)
theorem late_norm : W7 m ρ c (Proc.devRef .tc main_v26) = val_main_v27 (F := Ideal) (m ((c.tc : Thread nD τ).loc main_arg1)) :=
  (W7_of_ne m ρ c main_v26 (by decide)).trans (second_norm m ρ c)
theorem late_b2 : W7 m ρ c (Proc.devRef .tc main_arg5) = (m ((c.tc : Thread nD τ).loc main_arg5)) :=
  (W7_of_ne m ρ c main_arg5 (by decide)).trans (second_b2 m ρ c)

/-! ## At the return: the second layer's output -/

/-- The kernel's result array is the reference's last stage, as a function of the six argument arrays. (The reference
    computes the edge weights a second time for the second layer; it is the same term of the same edge lists.) -/
theorem result : W8 m ρ c (Proc.devRef .tc main_v61)
    = val_main_v76 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  dsimp only [W8, hostOps2]
  after_results_simp
  rw [late_lin, late_src, late_dst, late_norm, late_b2]
  simp only [val_main_c_7, val_main_v46, val_main_v47, val_main_c_8, val_main_v48, val_main_v49, val_main_v50, val_main_v51, val_main_v52, val_main_c_9, val_main_v53, val_main_v54, val_main_c_10, val_main_v55, val_main_v56, val_main_v57, val_main_v58, val_main_v59, val_main_v60, val_main_c_11, val_main_v61, val_main_v62, val_main_c_12, val_main_v63, val_main_v64, val_main_v65, val_main_v66, val_main_v67, val_main_v68, val_main_v69, val_main_v70, val_main_cst_13, val_main_v71, val_main_v72, val_main_v73, val_main_v74, val_main_v75, val_main_v76, val_main_c, val_main_v13, val_main_v14, val_main_c_1, val_main_v15, val_main_v16, val_main_v17, val_main_v18, val_main_v19, val_main_c_2, val_main_v20, val_main_v21, val_main_c_3, val_main_v22, val_main_v23, val_main_v24, val_main_v25, val_main_v26, val_main_v27]
  rfl

end Cert.KernelIdeal.Stages

end
-- ==== Proof.lean ====
/-
  A two-layer graph convolution: the kernel's program against its reference, on the extended reals.

  Both programs take node features x [100000, 512], an edge list [2, 1600000], two weight matrices and two biases.
  Both append a self loop per node to the edge list, count every node's in-degree by a segment sum of ones, weigh an
  edge by rsqrt(deg src) · rsqrt(deg dst), and compute twice: multiply by the layer's weight matrix, gather the rows at
  the edges' sources, scale by the edge weights, segment-sum into the edges' targets, add the bias — with max(·, 0)
  between the layers. The reference multiplies with one host product per layer. The kernel's program rounds the two
  operands to a shorter float format and multiplies twenty blocks of 5000 rows at a time on the matrix unit, each
  block into a zero accumulator.

  On the extended reals the change of format is the identity, and a block of rows of a product is the rows of the
  product (Proof/BlockProduct.lean): entry (p, q) of block t and entry (5000 t + p, q) of the whole product are the
  same sum of the same 512 (or 128) terms in the same order. So each grid leaves the whole product
  (Proof/Products.lean), every other buffer of the kernel's program is computed by the reference's own operations from
  equal inputs (Proof/Stages.lean), and the two results are one function of the six arguments. No law of the extended
  reals beyond this reading of two sums is used, so the precondition that the float inputs are finite is never
  opened. The kernel's idealization rewrote no operation, so the preservation claim is trivially true.
-/
import proofs.«100466_j66211215835752_1_alg».proof.Defs
import proofs.«100466_j66211215835752_1_alg».proof.Proof.Gen.Kernel
import proofs.«100466_j66211215835752_1_alg».proof.Proof.Gen.Kernel.Skeleton
import proofs.«100466_j66211215835752_1_alg».proof.Proof.Gen.Kernel.Launch
import proofs.«100466_j66211215835752_1_alg».proof.Proof.Gen.Kernel.Points
import proofs.«100466_j66211215835752_1_alg».proof.Proof.Gen.Kernel.Frame
import proofs.«100466_j66211215835752_1_alg».proof.Proof.Gen.KernelIdeal
import proofs.«100466_j66211215835752_1_alg».proof.Proof.Gen.KernelIdeal.Skeleton
import proofs.«100466_j66211215835752_1_alg».proof.Proof.Gen.KernelIdeal.Launch
import proofs.«100466_j66211215835752_1_alg».proof.Proof.Gen.KernelIdeal.Points
import proofs.«100466_j66211215835752_1_alg».proof.Proof.Gen.KernelIdeal.Frame
import proofs.«100466_j66211215835752_1_alg».proof.Proof.Gen.ReferenceIdeal
import proofs.«100466_j66211215835752_1_alg».proof.Proof.Gen.Pre_finite_inputs
import proofs.«100466_j66211215835752_1_alg».proof.Proof.Gen.ReferenceIdeal.Read
import proofs.«100466_j66211215835752_1_alg».proof.Proof.KernelRun
import proofs.«100466_j66211215835752_1_alg».proof.Proof.Stages
import Idealize.ShloMosaic.Adequacy
import Idealize.ShloMosaic.Init

noncomputable section

namespace Cert.Proof

open Idealize.ShloMosaic Idealize.ShloMosaic.TcCoe Idealize.SL.Sem

/-- The word-level kernel's program runs, faults nowhere, and leaves its arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The idealized kernel's run: the result array ends at the reference's last stage of the six argument arrays, and the
    arguments end as launched. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v61)
            = Cert.ReferenceIdeal.Read.val_main_v76 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
        ∧ r.2.mem ((c.tc : Thread Cert.KernelIdeal.nD Cert.KernelIdeal.τ).loc Cert.KernelIdeal.main_arg0) = (m ((c.tc : Thread Cert.KernelIdeal.nD Cert.KernelIdeal.τ).loc Cert.KernelIdeal.main_arg0))
        ∧ r.2.mem ((c.tc : Thread Cert.KernelIdeal.nD Cert.KernelIdeal.τ).loc Cert.KernelIdeal.main_arg1) = (m ((c.tc : Thread Cert.KernelIdeal.nD Cert.KernelIdeal.τ).loc Cert.KernelIdeal.main_arg1))
        ∧ r.2.mem ((c.tc : Thread Cert.KernelIdeal.nD Cert.KernelIdeal.τ).loc Cert.KernelIdeal.main_arg2) = (m ((c.tc : Thread Cert.KernelIdeal.nD Cert.KernelIdeal.τ).loc Cert.KernelIdeal.main_arg2))
        ∧ r.2.mem ((c.tc : Thread Cert.KernelIdeal.nD Cert.KernelIdeal.τ).loc Cert.KernelIdeal.main_arg3) = (m ((c.tc : Thread Cert.KernelIdeal.nD Cert.KernelIdeal.τ).loc Cert.KernelIdeal.main_arg3))
        ∧ r.2.mem ((c.tc : Thread Cert.KernelIdeal.nD Cert.KernelIdeal.τ).loc Cert.KernelIdeal.main_arg4) = (m ((c.tc : Thread Cert.KernelIdeal.nD Cert.KernelIdeal.τ).loc Cert.KernelIdeal.main_arg4))
        ∧ r.2.mem ((c.tc : Thread Cert.KernelIdeal.nD Cert.KernelIdeal.τ).loc Cert.KernelIdeal.main_arg5) = (m ((c.tc : Thread Cert.KernelIdeal.nD Cert.KernelIdeal.τ).loc Cert.KernelIdeal.main_arg5))) :=
  (θ_run (Cert.KernelIdeal.defs (F := Ideal)) _ _).mono (fun r h c =>
    ⟨(Cert.KernelIdeal.Held.held_at m ρ h c Cert.KernelIdeal.main_v61 (by decide)).trans (Cert.KernelIdeal.Stages.result m ρ c),
     (Cert.KernelIdeal.Held.held_at m ρ h c Cert.KernelIdeal.main_arg0 (by decide)).trans (Cert.KernelIdeal.Gen.W8_main_arg0 m ρ c),
     (Cert.KernelIdeal.Held.held_at m ρ h c Cert.KernelIdeal.main_arg1 (by decide)).trans (Cert.KernelIdeal.Gen.W8_main_arg1 m ρ c),
     (Cert.KernelIdeal.Held.held_at m ρ h c Cert.KernelIdeal.main_arg2 (by decide)).trans (Cert.KernelIdeal.Gen.W8_main_arg2 m ρ c),
     (Cert.KernelIdeal.Held.held_at m ρ h c Cert.KernelIdeal.main_arg3 (by decide)).trans (Cert.KernelIdeal.Gen.W8_main_arg3 m ρ c),
     (Cert.KernelIdeal.Held.held_at m ρ h c Cert.KernelIdeal.main_arg4 (by decide)).trans (Cert.KernelIdeal.Gen.W8_main_arg4 m ρ c),
     (Cert.KernelIdeal.Held.held_at m ρ h c Cert.KernelIdeal.main_arg5 (by decide)).trans (Cert.KernelIdeal.Gen.W8_main_arg5 m ρ c)⟩)
    (Cert.KernelIdeal.Held.run_held m ρ)

/-- From memories agreeing on the arguments both idealized programs run, and their results are equal, element by
    element: both are the reference's last stage of the six argument arrays. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v76_eq, (hagree c).1, (hagree c).2.1, (hagree c).2.2.1, (hagree c).2.2.2.1,
    (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
